-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S256x1024x256 : Shape := ⟨3, ![256, 1024, 256]⟩
abbrev S256x64 : Shape := ⟨2, ![256, 64]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x1024x256 : S_.BroadcastsInDim S256x1024x256 (![] : Fin 0 → Fin S256x1024x256.rank)
  reducesTo_S256x1024x256_S_d0_1_2 : S256x1024x256.ReducesTo [0, 1, 2] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_arg5 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  main_v28

def fn {F : FTy → Type} [FloatOps F] (main_arg0 : FVec F S256x256 .f32) (main_arg1 : FVec F S256x1024x256 .f32) (main_arg2 : FVec F S256x1024x256 .f32) (main_arg3 : FVec F S256x64 .f32) (main_arg4 : FVec F S256x64 .f32) (main_arg5 : FVec F S256x64 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x1024x256 .f32 := Host.absf main_arg1
  let main_cst_0 : FVec F S_ .f32 := constant S_ .f32 0x7F800000#32
  let main_v5 : FVec F S256x1024x256 .f32 := broadcastInDim S256x1024x256 ![] bcast_S_S256x1024x256 main_cst_0
  let main_v6 : IVec S256x1024x256 1 := cmpf .olt main_v4 main_v5
  let main_c_1 : IVec S_ 1 := constantI S_ 1 1#1
  let main_v7 : IVec S_ 1 := (fun x v => Host.reduce IntOp.andi x v reducesTo_S256x1024x256_S_d0_1_2 h_S_) main_v6 main_c_1
  let main_v8 : IVec S_ 1 := andi main_v3 main_v7
  let main_v9 : FVec F S256x1024x256 .f32 := Host.absf main_arg2
  let main_cst_2 : FVec F S_ .f32 := constant S_ .f32 0x7F800000#32
  let main_v10 : FVec F S256x1024x256 .f32 := broadcastInDim S256x1024x256 ![] bcast_S_S256x1024x256 main_cst_2
  let main_v11 : IVec S256x1024x256 1 := cmpf .olt main_v9 main_v10
  let main_c_3 : IVec S_ 1 := constantI S_ 1 1#1
  let main_v12 : IVec S_ 1 := (fun x v => Host.reduce IntOp.andi x v reducesTo_S256x1024x256_S_d0_1_2 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S256x256 : Shape := ⟨2, ![256, 256]⟩
abbrev S256x1024x256 : Shape := ⟨3, ![256, 1024, 256]⟩
abbrev S256x64 : Shape := ⟨2, ![256, 64]⟩
abbrev S256x256x1024 : Shape := ⟨3, ![256, 256, 1024]⟩
abbrev S256x256x64 : Shape := ⟨3, ![256, 256, 64]⟩
abbrev S4x1024x256 : Shape := ⟨3, ![4, 1024, 256]⟩
abbrev S4x256x1024 : Shape := ⟨3, ![4, 256, 1024]⟩
abbrev S4x256x64 : Shape := ⟨3, ![4, 256, 64]⟩
abbrev S1x1024x256 : Shape := ⟨3, ![1, 1024, 256]⟩
abbrev S1024x256 : Shape := ⟨2, ![1024, 256]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1x256x64 : Shape := ⟨3, ![1, 256, 64]⟩

abbrev nBuf : Space → Nat
  | .hbm => 9
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S256x1024x256, .f32⟩
  | .hbm, ⟨2, _⟩ => ⟨S256x1024x256, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x256x1024, .f32⟩
  | .hbm, ⟨7, _⟩ => ⟨S256x256x64, .f32⟩
  | .hbm, ⟨8, _⟩ => ⟨S256x256x64, .f32⟩
  | .local _ .vmem, ⟨0, _⟩ => ⟨S256x256, .f32⟩
  | .local _ .vmem, ⟨1, _⟩ => ⟨S4x1024x256, .f32⟩
  | .local _ .vmem, ⟨2, _⟩ => ⟨S4x1024x256, .f32⟩
  | .local _ .vmem, ⟨3, _⟩ => ⟨S4x1024x256, .f32⟩
  | .local _ .vmem, ⟨4, _⟩ => ⟨S4x1024x256, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S4x256x1024, .f32⟩
  | .local _ .vmem, ⟨9, _⟩ => ⟨S4x256x1024, .f32⟩
  | .local _ .vmem, ⟨10, _⟩ => ⟨S4x256x64, .f32⟩
  | .local _ .vmem, ⟨11, _⟩ => ⟨S4x256x64, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S4x1024x256_S1x1024x256_0_0_0 : ∀ a, (![0, 0, 0] : Fin 3 → Nat) a + S1x1024x256.size a ≤ S4x1024x256.size a
  h_S1x1024x256 : 0 < S1x1024x256.numel
  shapeCasts_S1x1024x256_S1024x256 : S1x1024x256.ShapeCasts S1024x256
  reduces_S256x1024_S256 : S256x1024.Reduces [1] S256
  shapeCasts_S256_S256x1 : S256.ShapeCasts S256x1
  broadcasts_S256x1_S256x1024 : S256x1.Broadcasts S256x1024
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  shapeCasts_S256x64_S1x256x64 : S256x64.ShapeCasts S1x256x64
  inb_S4x1024x256_S1x1024x256_1_0_0 : ∀ a, (![1, 0, 0] : Fin 3 → Nat) a + S1x1024x256.size a ≤ S4x1024x256.size a
  inb_S4x256x1024_S1x256x1024_1_0_0 : ∀ a, (![1, 0, 0] : Fin 3 → Nat) a + S1x256x1024.size a ≤ S4x256x1024.size a
  inb_S4x256x64_S1x256x64_1_0_0 : ∀ a, (![1, 0, 0] : Fin 3 → Nat) a + S1x256x64.size a ≤ S4x256x64.size a
  inb_S4x1024x256_S1x1024x256_2_0_0 : ∀ a, (![2, 0, 0] : Fin 3 → Nat) a + S1x1024x256.size a ≤ S4x1024x256.size a
  inb_S4x256x1024_S1x256x1024_2_0_0 : ∀ a, (![2, 0, 0] : Fin 3 → Nat) a + S1x256x1024.size a ≤ S4x256x1024.size a
  inb_S4x256x64_S1x256x64_2_0_0 : ∀ a, (![2, 0, 0] : Fin 3 → Nat) a + S1x256x64.size a ≤ S4x256x64.size a
  inb_S4x1024x256_S1x1024x256_3_0_0 : ∀ a, (![3, 0, 0] : Fin 3 → Nat) a + S1x1024x256.size a ≤ S4x1024x256.size a
  inb_S4x256x1024_S1x256x1024_3_0_0 : ∀ a, (![3, 0, 0] : Fin 3 → Nat) a + S1x256x1024.size a ≤ S4x256x1024.size a
  inb_S4x256x64_S1x256x64_3_0_0 : ∀ a, (![3, 0, 0] : Fin 3 → Nat) a + S1x256x64.size a ≤ S4x256x64.size a
  transposes_S256x256x64_S256x256x64_1_0_2 : S256x256x64.Transposes [1, 0, 2] S256x256x64
  dot_S256x256_S256x64_S256x64_1_0_0_1_n_n_wf : DotDims.WF S256x256 S256x64 S256x64 [1] [0] [0] [1] [] []
  dot_S1024x256_S256x64_S1024x64_1_0_0_1_n_n_wf : DotDims.WF S1024x256 S256x64 S1024x64 [1] [0] [0] [1] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x256.size a ≤ S256x1024x256.size a
  hwx0_1 : ∀ i : grid0.Coords, EltTy.bits .f32 = 32 ∨ (Rect.block (s := S256x1024x256) S4x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x256.size a ≤ S256x1024x256.size a
  hwx0_2 : ∀ i : grid0.Coords, EltTy.bits .f32 = 32 ∨ (Rect.block (s := S256x1024x256) S4x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x1024.size a ≤ S256x256x1024.size a
  hwx0_6 : ∀ i : grid0.Coords, EltTy.bits .f32 = 32 ∨ (Rect.block (s := S256x256x1024) S4x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x64.size a ≤ S256x256x64.size a
  hwx0_7 : ∀ i : grid0.Coords, EltTy.bits .f32 = 32 ∨ (Rect.block (s := S256x256x64) S4x256x64.size (cc0_transform_7 i) (hinb0_7 i)).WholeWords (EltTy.packing .f32)

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S4x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S4x256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x256 : Shape := ⟨2, ![256, 256]⟩
abbrev S256x1024x256 : Shape := ⟨3, ![256, 1024, 256]⟩
abbrev S256x64 : Shape := ⟨2, ![256, 64]⟩
abbrev S256x1024x64 : Shape := ⟨3, ![256, 1024, 64]⟩
abbrev S256x256x1024 : Shape := ⟨3, ![256, 256, 1024]⟩
abbrev S_ : Shape := ⟨0, ![]⟩
abbrev S256x256x1 : Shape := ⟨3, ![256, 256, 1]⟩
abbrev S256x64x256 : Shape := ⟨3, ![256, 64, 256]⟩
abbrev S256x256x64 : Shape := ⟨3, ![256, 256, 64]⟩

abbrev nBuf : Space → Nat
  | .hbm => 30
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x1024x256, .f32⟩
  | .hbm, ⟨2, _⟩ => ⟨S256x1024x256, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x1024x64, .f32⟩
  | .hbm, ⟨8, _⟩ => ⟨S256x1024x64, .f32⟩
  | .hbm, ⟨9, _⟩ => ⟨S256x1024x256, .f32⟩
  | .hbm, ⟨10, _⟩ => ⟨S256x256x1024, .f32⟩
  | .hbm, ⟨11, _⟩ => ⟨S_, .f32⟩
  | .hbm, ⟨12, _⟩ => ⟨S256x256x1024, .f32⟩
  | .hbm, ⟨13, _⟩ => ⟨S256x256x1024, .f32⟩
  | .hbm, ⟨14, _⟩ => ⟨S_, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256x1, .f32⟩
  | .hbm, ⟨20, _⟩ => ⟨S256x256x1024, .f32⟩
  | .hbm, ⟨21, _⟩ => ⟨S256x256x1024, .f32⟩
  | .hbm, ⟨22, _⟩ => ⟨S256x256x1024, .f32⟩
  | .hbm, ⟨23, _⟩ => ⟨S_, .f32⟩
  | .hbm, ⟨24, _⟩ => ⟨S256x256, .f32⟩
  | .hbm, ⟨25, _⟩ => ⟨S256x256x1, .f32⟩
  | .hbm, ⟨26, _⟩ => ⟨S256x256x1024, .f32⟩
  | .hbm, ⟨27, _⟩ => ⟨S256x256x1024, .f32⟩
  | .hbm, ⟨28, _⟩ => ⟨S256x64x256, .f32⟩
  | .hbm, ⟨29, _⟩ => ⟨S256x256x64, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S256x1024x256_S256x256x1024_0_2_1 : S256x1024x256.Transposes [0, 2, 1] S256x256x1024
  bcast_S_S256x256x1024 : S_.BroadcastsInDim S256x256x1024 (![] : Fin 0 → Fin S256x256x1024.rank)
  reducesTo_S256x256x1024_S256x256_d2 : S256x256x1024.ReducesTo [2] S256x256
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x1024_0_1_2 : S256x256x1.BroadcastsInDim S256x256x1024 (![0, 1, 2] : Fin 3 → Fin S256x256x1024.rank)
  transposes_S256x64x256_S256x256x64_2_0_1 : S256x64x256.Transposes [2, 0, 1] S256x256x64
  dot_S256x256_S256x64_S256x64_1_0_0_1_n_n_wf : DotDims.WF S256x256 S256x64 S256x64 [1] [0] [0] [1] [] []
  dot_S256x1024x256_S256x64_S256x1024x64_2_0_01_1_n_n_wf : DotDims.WF S256x1024x256 S256x64 S256x1024x64 [2] [0] [0, 1] [1] [] []
  dot_S256x1024x64_S256x64_S256x1024x256_2_1_01_0_n_n_wf : DotDims.WF S256x1024x64 S256x64 S256x1024x256 [2] [1] [0, 1] [0] [] []
  dot_S256x1024x64_S256x256x1024_S256x64x256_1_2_2_1_0_0_wf : DotDims.WF S256x1024x64 S256x256x1024 S256x64x256 [1] [2] [2] [1] [0] [0]

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x1024x256_S256x64_S256x1024x64_2_0_01_1_n_n : DotDims S256x1024x256 S256x64 S256x1024x64 where
  lhsContracting := [2]
  rhsContracting := [0]
  lhsNonContracting := [0, 1]
  rhsNonContracting := [1]
  lhsBatch := []
  rhsBatch := []
  wf := dot_S256x1024x256_S256x64_S256x1024x64_2_0_01_1_n_n_wf
def dot_S256x1024x64_S256x64_S256x1024x256_2_1_01_0_n_n : DotDims S256x1024x64 S256x64 S256x1024x256 where
  lhsContracting := [2]
  rhsContracting := [1]
  lhsNonContracting := [0, 1]
  rhsNonContracting := [0]
  lhsBatch := []
  rhsBatch := []
  wf := dot_S256x1024x64_S256x64_S256x1024x256_2_1_01_0_n_n_wf
def dot_S256x1024x64_S256x256x1024_S256x64x256_1_2_2_1_0_0 : DotDims S256x1024x64 S256x256x1024 S256x64x256 where
  lhsContracting := [1]
  rhsContracting := [2]
  lhsNonContracting := [2]
  rhsNonContracting := [1]
  lhsBatch := [0]
  rhsBatch := [0]
  wf := dot_S256x1024x64_S256x256x1024_S256x64x256_1_2_2_1_0_0_wf

class Facts : Prop extends Facts₀ where

variable [Facts]
-- ==== Proof.Spec.lean ====
/-
  One attention slice over the extended reals, and the two result arrays it fills.

  A query matrix `q : [256, 256]` is projected once to `qp = q · Wq : [256, 64]`.  For each of the 256 slices `n` the keys
  `K n : [1024, 256]` and the values `V n : [1024, 256]` are projected to `kp = K n · Wk` and `vp = V n · Wv`, both
  `[1024, 64]`.  The score of query row `b` against key row `l` is `(Σ j, qp (b, j) · kp (l, j)) · 1/8`; a row of scores is
  turned into weights by subtracting the row's maximum, exponentiating, and dividing by the row's sum; the context of
  row `b` is `Σ l, weight (b, l) · vp (l, o)`.  The first result holds the contexts laid out `[b, n, o]`, the second the
  weights laid out `[n, b, l]`.

  Sums over a finite index set in the extended reals may be taken in any order and a product may be written with its
  factors either way round, which is all that relates the two programs; no entry needs to be finite.
-/
import Idealize.ShloMosaic.PureOps.Ideal
import Idealize.ShloMosaic.Lib.ValueIdx

noncomputable section

namespace Cert.Attention

open Idealize.ShloMosaic Idealize.ShloMosaic.ValueIdx

/-- A matrix of extended reals. -/
abbrev Mat (a b : ℕ) : Type := (⟨2, ![a, b]⟩ : Shape).Idx → EReal
/-- A rank-three array of extended reals. -/
abbrev Ten (a b c : ℕ) : Type := (⟨3, ![a, b, c]⟩ : Shape).Idx → EReal

/-- The scale `1/8`, as the single-precision word both programs carry. -/
abbrev eighth : EReal := Ideal.ofBits .f32 0x3E000000#32
/-- The value a row maximum is folded from: the word of `-∞`. -/
abbrev floorVal : EReal := Ideal.ofBits .f32 0xFF800000#32

/-- The matrix product `X · W`, entry by entry. -/
def mm {r d j : ℕ} (X : Mat r d) (W : Mat d j) : Mat r j := fun i => ∑ e : Fin d, X (ix2 (i 0) e) * W (ix2 e (i 1))

theorem mm_apply {r d j : ℕ} (X : Mat r d) (W : Mat d j) (a : Fin r) (c : Fin j) :
    mm X W (ix2 a c) = ∑ e : Fin d, X (ix2 a e) * W (ix2 e c) := rfl

/-- Slice `n` of a rank-three array, as a matrix. -/
def slice {N a b : ℕ} (T : Ten N a b) (n : Fin N) : Mat a b := fun i => T (ix3 n (i 0) (i 1))

theorem slice_apply {N a b : ℕ} (T : Ten N a b) (n : Fin N) (p : Fin a) (q : Fin b) :
    slice T n (ix2 p q) = T (ix3 n p q) := rfl

section Core

variable (qp : Mat 256 64) (kp : Mat 1024 64) (vp : Mat 1024 64)

/-- The scaled score of query row `b` against key row `l`. -/
def score (b : Fin 256) (l : Fin 1024) : EReal := (∑ j : Fin 64, qp (ix2 b j) * kp (ix2 l j)) * eighth

/-- The maximum of a row of scores, folded from `-∞`. -/
def rowMax (b : Fin 256) : EReal := (Finset.univ : Finset (Fin 1024)).fold max floorVal (fun l => score qp kp b l)

/-- A score less its row's maximum, exponentiated. -/
def expo (b : Fin 256) (l : Fin 1024) : EReal := Ideal.exp (score qp kp b l - rowMax qp kp b)

/-- The sum of a row of exponentials. -/
def denom (b : Fin 256) : EReal := ∑ l : Fin 1024, expo qp kp b l

/-- The attention weight of key row `l` for query row `b`. -/
def weight (b : Fin 256) (l : Fin 1024) : EReal := Ideal.div (expo qp kp b l) (denom qp kp b)

/-- The context of query row `b`: the weighted sum of the projected values. -/
def context (b : Fin 256) (o : Fin 64) : EReal := ∑ l : Fin 1024, weight qp kp b l * vp (ix2 l o)

end Core

section Whole

variable (q : Mat 256 256) (K V : Ten 256 1024 256) (wq wk wv : Mat 256 64)

/-- The weights of every slice, laid out `[n, b, l]`. -/
def weights : Ten 256 256 1024 := fun i => weight (mm q wq) (mm (slice K (i 0)) wk) (i 1) (i 2)

/-- The contexts of every slice, laid out `[n, b, o]`. -/
def contextsBySlice : Ten 256 256 64 :=
  fun i => context (mm q wq) (mm (slice K (i 0)) wk) (mm (slice V (i 0)) wv) (i 1) (i 2)

/-- The contexts laid out `[b, n, o]`. -/
def contexts : Ten 256 256 64 :=
  fun i => context (mm q wq) (mm (slice K (i 1)) wk) (mm (slice V (i 1)) wv) (i 0) (i 2)

end Whole

end Cert.Attention

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.Slice.lean ====
/-
  What the kernel computes for one slice, read entry by entry.

  Within one grid step the body treats each of its four slices alike: it projects the slice's keys and values, scores
  the projected query against the projected keys, turns every row of scores into weights, and multiplies the weights
  into the projected values.  Here those stages are named once, the body's stored values are shown to be those stages
  of its loads, and each stage is read at an index over the extended reals: a product into the zero accumulator is a
  plain sum, a change of float format does nothing, a lane maximum is the fold of `max` from `-∞` and a lane sum the sum.
-/
import proofs.«131296_j89060441850566_2_alg».proof.Proof.Gen.KernelIdeal.Skeleton
import proofs.«131296_j89060441850566_2_alg».proof.Proof.Spec
import proofs.«131296_j89060441850566_2_alg».proof.Proof.LibBroadcast
import proofs.«131296_j89060441850566_2_alg».proof.Proof.LibRowsProduct
import proofs.«131296_j89060441850566_2_alg».proof.Proof.LibPlainProduct
import proofs.«131296_j89060441850566_2_alg».proof.Proof.LibRowFolds
import Idealize.ShloMosaic.Lib.Pipeline.Value
import Idealize.ShloMosaic.Lib.ValueIdx
import Idealize.ShloMosaic.PureOps.Ideal.Laws

noncomputable section

namespace Cert.KernelIdeal.Slice

open Idealize.ShloMosaic Idealize.ShloMosaic.ValueIdx Cert.KernelIdeal Cert.Attention
open Cert.KernelIdeal.Facts₀

/-! ## The stages -/

/-- A `[1, 1024, 256]` block of keys or values times a `[256, 64]` weight matrix. -/
def projV (w : FVec Ideal S256x64 .bf16) (blk : Vec Ideal S1x1024x256 .f32) : FVec Ideal S1024x64 .f32 :=
  matmul dot_S1024x256_S256x64_S1024x64_1_0_0_1_n_n none
    (truncf .bf16 (shapeCast S1024x256 blk shapeCasts_S1x1024x256_S1024x256) bitsLt_bf16_f32) w
    (constant S1024x64 .f32 0x00000000#32)

/-- The scaled scores of the projected query against projected keys. -/
def scoreV (qp : FVec Ideal S256x64 .bf16) (kp : FVec Ideal S1024x64 .f32) : FVec Ideal S256x1024 .f32 :=
  mulf (matmul dot_S256x64_S1024x64_S256x1024_1_1_0_0_n_n none qp (truncf .bf16 kp bitsLt_bf16_f32)
      (constant S256x1024 .f32 0x00000000#32))
    (broadcast S256x1024 (Scalar.ofBits .f32 0x3E000000#32))

/-- Scores less their row's maximum, exponentiated. -/
def expV (s : FVec Ideal S256x1024 .f32) : FVec Ideal S256x1024 .f32 :=
  exp (subf s (broadcastTo S256x1024
    (shapeCast S256x1 (multiReduction .maximumf [1] S256 s 0xFF800000#32 reduces_S256x1024_S256 (.inl rfl) rfl)
      shapeCasts_S256_S256x1) broadcasts_S256x1_S256x1024))

/-- Exponentials divided by their row's sum. -/
def normV (e : FVec Ideal S256x1024 .f32) : FVec Ideal S256x1024 .f32 :=
  divf e (broadcastTo S256x1024
    (shapeCast S256x1 (multiReduction .add [1] S256 e 0x00000000#32 reduces_S256x1024_S256 (.inl rfl) rfl)
      shapeCasts_S256_S256x1) broadcasts_S256x1_S256x1024)

/-- The weights of one slice. -/
def weightV (wk qp : FVec Ideal S256x64 .bf16) (kblk : Vec Ideal S1x1024x256 .f32) : FVec Ideal S256x1024 .f32 :=
  normV (expV (scoreV qp (projV wk kblk)))

/-- The contexts of one slice. -/
def contextV (wk wv qp : FVec Ideal S256x64 .bf16) (kblk vblk : Vec Ideal S1x1024x256 .f32) : FVec Ideal S256x64 .f32 :=
  matmul dot_S256x1024_S1024x64_S256x64_1_0_0_1_n_n none (truncf .bf16 (weightV wk qp kblk) bitsLt_bf16_f32)
    (truncf .bf16 (projV wv vblk) bitsLt_bf16_f32) (constant S256x64 .f32 0x00000000#32)

/-- The projected query. -/
def queryV (wq : Vec Ideal S256x64 .f32) (q : Vec Ideal S256x256 .f32) : FVec Ideal S256x64 .bf16 :=
  truncf .bf16 (matmul dot_S256x256_S256x64_S256x64_1_0_0_1_n_n none (truncf .bf16 q bitsLt_bf16_f32)
    (truncf .bf16 wq bitsLt_bf16_f32) (constant S256x64 .f32 0x00000000#32)) bitsLt_bf16_f32

/-! ## The body's stored values are these stages of its loads -/

theorem pay6_eq (v0 : Vec Ideal S256x64 .f32) (v6 : Vec Ideal S256x256 .f32) : Gen.k0_pay6 v0 v6 = queryV v0 v6 := rfl

theorem pay1_eq (v3 v9 : FVec Ideal S256x64 .bf16) (v113 : Vec Ideal S1x1024x256 .f32) :
    Gen.k0_pay1 v3 v9 v113 = weightV v3 v9 v113 := rfl
theorem pay11_eq (v3 v9 : FVec Ideal S256x64 .bf16) (v45 : Vec Ideal S1x1024x256 .f32) :
    Gen.k0_pay11 v3 v9 v45 = weightV v3 v9 v45 := rfl
theorem pay15_eq (v3 v9 : FVec Ideal S256x64 .bf16) (v79 : Vec Ideal S1x1024x256 .f32) :
    Gen.k0_pay15 v3 v9 v79 = weightV v3 v9 v79 := rfl
theorem pay7_eq (v0 v2 : Vec Ideal S256x64 .f32) (v6 : Vec Ideal S256x256 .f32) (v11 : Vec Ideal S1x1024x256 .f32) :
    Gen.k0_pay7 v0 v2 v6 v11 = weightV (Gen.k0_pay4 v2) (Gen.k0_pay6 v0 v6) v11 := rfl

/-- Every one of the four stores into the weights' block holds a slice's weights with a leading unit axis. -/
theorem pay2_eq (v3 v9 : FVec Ideal S256x64 .bf16) (v113 : Vec Ideal S1x1024x256 .f32) :
    Gen.k0_pay2 v3 v9 v113 = shapeCast S1x256x1024 (weightV v3 v9 v113) shapeCasts_S256x1024_S1x256x1024 := rfl
theorem pay13_eq (v3 v9 : FVec Ideal S256x64 .bf16) (v45 : Vec Ideal S1x1024x256 .f32) :
    Gen.k0_pay13 v3 v9 v45 = shapeCast S1x256x1024 (weightV v3 v9 v45) shapeCasts_S256x1024_S1x256x1024 := rfl
theorem pay16_eq (v3 v9 : FVec Ideal S256x64 .bf16) (v79 : Vec Ideal S1x1024x256 .f32) :
    Gen.k0_pay16 v3 v9 v79 = shapeCast S1x256x1024 (weightV v3 v9 v79) shapeCasts_S256x1024_S1x256x1024 := rfl
theorem pay9_7_eq (v0 v2 : Vec Ideal S256x64 .f32) (v6 : Vec Ideal S256x256 .f32) (v11 : Vec Ideal S1x1024x256 .f32) :
    Gen.k0_pay9 (Gen.k0_pay7 v0 v2 v6 v11)
      = shapeCast S1x256x1024 (weightV (Gen.k0_pay4 v2) (Gen.k0_pay6 v0 v6) v11) shapeCasts_S256x1024_S1x256x1024 := rfl

/-- Every one of the four stores into the contexts' block holds a slice's contexts with a leading unit axis. -/
theorem pay3_eq (v3 v5 v9 : FVec Ideal S256x64 .bf16) (v113 v118 : Vec Ideal S1x1024x256 .f32) :
    Gen.k0_pay3 v3 v5 v9 v113 v118 = shapeCast S1x256x64 (contextV v3 v5 v9 v113 v118) shapeCasts_S256x64_S1x256x64 := rfl
theorem pay17_eq (v3 v5 v9 : FVec Ideal S256x64 .bf16) (v79 v84 : Vec Ideal S1x1024x256 .f32) :
    Gen.k0_pay17 v3 v5 v9 v79 v84 = shapeCast S1x256x64 (contextV v3 v5 v9 v79 v84) shapeCasts_S256x64_S1x256x64 := rfl
theorem pay14_12_eq (v3 v5 v9 : FVec Ideal S256x64 .bf16) (v45 v50 : Vec Ideal S1x1024x256 .f32) :
    Gen.k0_pay14 (Gen.k0_pay12 v3 v5 v9 v45 v50)
      = shapeCast S1x256x64 (contextV v3 v5 v9 v45 v50) shapeCasts_S256x64_S1x256x64 := rfl
theorem pay10_8_eq (v0 v2 v4 : Vec Ideal S256x64 .f32) (v6 : Vec Ideal S256x256 .f32) (v11 v16 : Vec Ideal S1x1024x256 .f32) :
    Gen.k0_pay10 (Gen.k0_pay8 v0 v2 v4 v6 v11 v16)
      = shapeCast S1x256x64 (contextV (Gen.k0_pay4 v2) (Gen.k0_pay5 v4) (Gen.k0_pay6 v0 v6) v11 v16) shapeCasts_S256x64_S1x256x64 := rfl

end Cert.KernelIdeal.Slice

end
-- ==== Proof.SliceRead.lean ====
/-
  The kernel's stages for one slice are the attention slice of the specification.

  Read at an index over the extended reals: the projection of a block is the matrix product of its one slice, the
  scores are the scaled inner products of projected query rows and projected key rows, the exponentials and their
  normalisation are the row-wise ones, and the contexts are the weights times the projected values.
-/
import proofs.«131296_j89060441850566_2_alg».proof.Proof.Slice

noncomputable section

namespace Cert.KernelIdeal.Slice

open Idealize.ShloMosaic Idealize.ShloMosaic.ValueIdx Cert.KernelIdeal Cert.Attention
open Cert.KernelIdeal.Facts₀

/-- A `[1, a, b]` block re-laid as an `[a, b]` matrix keeps its entries. -/
theorem dropUnit_apply (blk : Vec Ideal S1x1024x256 .f32) (l : Fin 1024) (e : Fin 256) :
    shapeCast S1024x256 blk shapeCasts_S1x1024x256_S1024x256 (ix2 l e) = blk (ix3 (0 : Fin 1) l e) := by
  refine shapeCast_apply blk _ (ix2 l e) (ix3 (0 : Fin 1) l e) ?_
  rw [Shape.rowMajor_val_three, Shape.rowMajor_val_two]
  show (0 * 1024 + l.val) * 256 + e.val = l.val * 256 + e.val
  omega

/-- The projection of a block is the product of its slice with the weight matrix. -/
theorem projV_eq (w : FVec Ideal S256x64 .bf16) (blk : Vec Ideal S1x1024x256 .f32) :
    projV w blk = mm (slice (N := 1) (a := 1024) (b := 256) blk 0) w := by
  funext i
  obtain ⟨l, c, rfl⟩ : ∃ (l : Fin 1024) (c : Fin 64), i = ix2 l c := ⟨i 0, i 1, eq_ix2 i⟩
  unfold projV
  refine (Cert.PlainProduct.matmul_nn_apply dot_S1024x256_S256x64_S1024x64_1_0_0_1_n_n_wf none _ w l c).trans ?_
  rw [mm_apply]
  refine Finset.sum_congr rfl fun e _ => ?_
  refine congrArg (· * w (ix2 e c)) ?_
  exact dropUnit_apply blk l e

/-- The projected query is the product of the queries with their weight matrix. -/
theorem queryV_eq (wq : Vec Ideal S256x64 .f32) (q : Vec Ideal S256x256 .f32) :
    queryV wq q = mm (r := 256) (d := 256) (j := 64) q wq := by
  funext i
  obtain ⟨b, c, rfl⟩ : ∃ (b : Fin 256) (c : Fin 64), i = ix2 b c := ⟨i 0, i 1, eq_ix2 i⟩
  unfold queryV
  exact Cert.PlainProduct.matmul_nn_apply dot_S256x256_S256x64_S256x64_1_0_0_1_n_n_wf none _ _ b c

/-- The scores, read at `(b, l)`. -/
theorem scoreV_apply (qp : FVec Ideal S256x64 .bf16) (kp : FVec Ideal S1024x64 .f32) (b : Fin 256) (l : Fin 1024) :
    scoreV qp kp (ix2 b l) = score qp kp b l := by
  unfold scoreV score
  refine congrArg (· * eighth) ?_
  exact Cert.RowsProduct.matmul_nt_apply dot_S256x64_S1024x64_S256x1024_1_1_0_0_n_n_wf none qp _ b l

/-- The exponentials, read at `(b, l)`: the entry less the row's maximum, exponentiated. -/
theorem expV_apply (s : FVec Ideal S256x1024 .f32) (b : Fin 256) (l : Fin 1024) :
    expV s (ix2 b l)
      = Ideal.exp (s (ix2 b l) - (Finset.univ : Finset (Fin 1024)).fold max floorVal (fun k => s (ix2 b k))) := by
  unfold expV
  refine congrArg (fun x => Ideal.exp (s (ix2 b l) - x)) ?_
  refine (Cert.Layout.broadcastTo_a1_ab_apply _ broadcasts_S256x1_S256x1024 b l).trans ?_
  refine (Cert.Layout.shapeCast_col_apply _ shapeCasts_S256_S256x1 b).trans ?_
  exact Cert.RowFolds.laneMax_apply s 0xFF800000#32 reduces_S256x1024_S256 (.inl rfl) rfl b

/-- The normalisation, read at `(b, l)`: the entry divided by the row's sum. -/
theorem normV_apply (e : FVec Ideal S256x1024 .f32) (b : Fin 256) (l : Fin 1024) :
    normV e (ix2 b l) = Ideal.div (e (ix2 b l)) (∑ k : Fin 1024, e (ix2 b k)) := by
  unfold normV
  refine congrArg (fun x => Ideal.div (e (ix2 b l)) x) ?_
  refine (Cert.Layout.broadcastTo_a1_ab_apply _ broadcasts_S256x1_S256x1024 b l).trans ?_
  refine (Cert.Layout.shapeCast_col_apply _ shapeCasts_S256_S256x1 b).trans ?_
  exact Cert.RowFolds.laneSum_apply e 0x00000000#32 reduces_S256x1024_S256 (.inl rfl) rfl b

theorem expV_score (qp : FVec Ideal S256x64 .bf16) (kp : FVec Ideal S1024x64 .f32) (b : Fin 256) (l : Fin 1024) :
    expV (scoreV qp kp) (ix2 b l) = expo qp kp b l := by
  rw [expV_apply]
  unfold expo rowMax
  simp only [scoreV_apply]

/-- A slice's weights, read at `(b, l)`. -/
theorem weightV_apply (wk qp : FVec Ideal S256x64 .bf16) (kblk : Vec Ideal S1x1024x256 .f32) (b : Fin 256) (l : Fin 1024) :
    weightV wk qp kblk (ix2 b l) = weight qp (mm (slice (N := 1) (a := 1024) (b := 256) kblk 0) wk) b l := by
  unfold weightV weight denom
  rw [normV_apply]
  simp only [expV_score, projV_eq]

/-- A slice's contexts, read at `(b, o)`. -/
theorem contextV_apply (wk wv qp : FVec Ideal S256x64 .bf16) (kblk vblk : Vec Ideal S1x1024x256 .f32) (b : Fin 256) (o : Fin 64) :
    contextV wk wv qp kblk vblk (ix2 b o)
      = context qp (mm (slice (N := 1) (a := 1024) (b := 256) kblk 0) wk)
          (mm (slice (N := 1) (a := 1024) (b := 256) vblk 0) wv) b o := by
  unfold contextV context
  refine (Cert.PlainProduct.matmul_nn_apply dot_S256x1024_S1024x64_S256x64_1_0_0_1_n_n_wf none _ _ b o).trans ?_
  refine Finset.sum_congr rfl fun l _ => ?_
  show weightV wk qp kblk (ix2 b l) * projV wv vblk (ix2 l o) = _
  rw [weightV_apply, projV_eq]

end Cert.KernelIdeal.Slice

end
-- ==== Proof.Blocks.lean ====
/-
  What one grid step leaves in its two output blocks, as functions of the step's input blocks.

  A step holds four consecutive slices.  Its weights block `[4, 256, 1024]` has at `(i, b, l)` the attention weight of
  slice `i` of the keys block, and its contexts block `[4, 256, 64]` at `(i, b, o)` the context of slice `i` of the keys
  and values blocks; each is written by four stores, one per slice, and every store's value is that one function at the
  store's own place.
-/
import proofs.«131296_j89060441850566_2_alg».proof.Proof.SliceRead
import proofs.«131296_j89060441850566_2_alg».proof.Proof.Gen.KernelIdeal.Frame

set_option maxRecDepth 16384

noncomputable section

namespace Cert.KernelIdeal.Blocks

open Idealize.ShloMosaic Idealize.ShloMosaic.ValueIdx Cert.KernelIdeal Cert.Attention Cert.KernelIdeal.Slice

/-- The weights block of a step from its input blocks. -/
def wBlock (x0 : Vec Ideal S256x256 .f32) (x1 : Vec Ideal S4x1024x256 .f32) (x3 x4 : Vec Ideal S256x64 .f32) :
    Vec Ideal S4x256x1024 .f32 :=
  fun y => weight (mm (r := 256) (d := 256) (j := 64) x0 x3)
    (mm (slice (N := 4) (a := 1024) (b := 256) x1 (y 0)) x4) (y 1) (y 2)

/-- The contexts block of a step from its input blocks. -/
def cBlock (x0 : Vec Ideal S256x256 .f32) (x1 x2 : Vec Ideal S4x1024x256 .f32) (x3 x4 x5 : Vec Ideal S256x64 .f32) :
    Vec Ideal S4x256x64 .f32 :=
  fun y => context (mm (r := 256) (d := 256) (j := 64) x0 x3)
    (mm (slice (N := 4) (a := 1024) (b := 256) x1 (y 0)) x4)
    (mm (slice (N := 4) (a := 1024) (b := 256) x2 (y 0)) x5) (y 1) (y 2)

theorem zeros2 : (![0, 0] : Fin 2 → Nat) = fun _ => 0 := funext fun a => by fin_cases a <;> rfl

/-- Slice `i` of a `[4, 1024, 256]` block, loaded as a `[1, 1024, 256]` block, is that slice. -/
theorem slice_ld (x : Vec Ideal S4x1024x256 .f32) (i : ℕ) (hi : i < 4) (inb) :
    slice (N := 1) (a := 1024) (b := 256) (View.ld x (Rect.unit (s := S4x1024x256) ![i, 0, 0] S1x1024x256.size inb)) 0
      = slice (N := 4) (a := 1024) (b := 256) x ⟨i, hi⟩ := by
  funext j
  show x ((Rect.unit (s := S4x1024x256) ![i, 0, 0] S1x1024x256.size inb).idx (ix3 (0 : Fin 1) (j 0) (j 1))) = x (ix3 ⟨i, hi⟩ (j 0) (j 1))
  refine congrArg x (funext fun a => Fin.ext ?_)
  match a with
  | ⟨0, _⟩ => show i + 1 * 0 = i; omega
  | ⟨1, _⟩ => show 0 + 1 * (j 0).val = (j 0).val; omega
  | ⟨2, _⟩ => show 0 + 1 * (j 1).val = (j 1).val; omega

/-- Where the store of slice `i` puts its entry `(0, b, l)` in the weights block. -/
theorem emb_w (i : ℕ) (hi : i < 4) (inb) (x : S1x256x1024.Idx) :
    (Rect.unit (s := S4x256x1024) ![i, 0, 0] S1x256x1024.size inb).emb x = ix3 (⟨i, hi⟩ : Fin 4) (x 1) (x 2) := by
  have h0 : (x 0).val < 1 := (x 0).isLt
  refine funext fun a => Fin.ext ?_
  match a with
  | ⟨0, _⟩ => show i + 1 * (x 0).val = i; omega
  | ⟨1, _⟩ => show 0 + 1 * (x 1).val = (x 1).val; omega
  | ⟨2, _⟩ => show 0 + 1 * (x 2).val = (x 2).val; omega

/-- Where the store of slice `i` puts its entry `(0, b, o)` in the contexts block. -/
theorem emb_c (i : ℕ) (hi : i < 4) (inb) (x : S1x256x64.Idx) :
    (Rect.unit (s := S4x256x64) ![i, 0, 0] S1x256x64.size inb).emb x = ix3 (⟨i, hi⟩ : Fin 4) (x 1) (x 2) := by
  have h0 : (x 0).val < 1 := (x 0).isLt
  refine funext fun a => Fin.ext ?_
  match a with
  | ⟨0, _⟩ => show i + 1 * (x 0).val = i; omega
  | ⟨1, _⟩ => show 0 + 1 * (x 1).val = (x 1).val; omega
  | ⟨2, _⟩ => show 0 + 1 * (x 2).val = (x 2).val; omega

/-- The weights with a leading unit axis, read at an index. -/
theorem weights_unit (wk qp : FVec Ideal S256x64 .bf16) (kblk : Vec Ideal S1x1024x256 .f32) (x : S1x256x1024.Idx) :
    shapeCast S1x256x1024 (weightV wk qp kblk) Facts₀.shapeCasts_S256x1024_S1x256x1024 x
      = weight qp (mm (slice (N := 1) (a := 1024) (b := 256) kblk 0) wk) (x 1) (x 2) := by
  refine (shapeCast_addUnit_apply ![256, 1024] (weightV wk qp kblk) Facts₀.shapeCasts_S256x1024_S1x256x1024 x).trans ?_
  have e : (fun a : Fin 2 => x a.succ) = ix2 (x 1) (x 2) :=
    funext fun a => by match a with | ⟨0, _⟩ => rfl | ⟨1, _⟩ => rfl
  rw [e]
  exact weightV_apply wk qp kblk (x 1) (x 2)

/-- The contexts with a leading unit axis, read at an index. -/
theorem contexts_unit (wk wv qp : FVec Ideal S256x64 .bf16) (kblk vblk : Vec Ideal S1x1024x256 .f32) (x : S1x256x64.Idx) :
    shapeCast S1x256x64 (contextV wk wv qp kblk vblk) Facts₀.shapeCasts_S256x64_S1x256x64 x
      = context qp (mm (slice (N := 1) (a := 1024) (b := 256) kblk 0) wk)
          (mm (slice (N := 1) (a := 1024) (b := 256) vblk 0) wv) (x 1) (x 2) := by
  refine (shapeCast_addUnit_apply ![256, 64] (contextV wk wv qp kblk vblk) Facts₀.shapeCasts_S256x64_S1x256x64 x).trans ?_
  have e : (fun a : Fin 2 => x a.succ) = ix2 (x 1) (x 2) :=
    funext fun a => by match a with | ⟨0, _⟩ => rfl | ⟨1, _⟩ => rfl
  rw [e]
  exact contextV_apply wk wv qp kblk vblk (x 1) (x 2)

/-- The weight matrices and the queries are loaded whole: a change of float format leaves them as they are, and the
    projected query is the product of the queries with their weight matrix. -/
theorem wk_loaded (x4 : Vec Ideal S256x64 .f32) : Gen.k0_pay4 (View.ld x4 Gen.r0_0) = x4 := by
  rw [View.ld_unit_zero (S := S256x64) zeros2]; rfl
theorem wv_loaded (x5 : Vec Ideal S256x64 .f32) : Gen.k0_pay5 (View.ld x5 Gen.r0_0) = x5 := by
  rw [View.ld_unit_zero (S := S256x64) zeros2]; rfl
theorem qp_loaded (x0 : Vec Ideal S256x256 .f32) (x3 : Vec Ideal S256x64 .f32) :
    Gen.k0_pay6 (View.ld x3 Gen.r0_0) (View.ld x0 Gen.r0_1) = mm (r := 256) (d := 256) (j := 64) x0 x3 := by
  rw [View.ld_unit_zero (S := S256x64) zeros2, View.ld_unit_zero (S := S256x256) zeros2, pay6_eq, queryV_eq]

/-- The store of slice `i` into the weights block holds the block's function at the store's place. -/
theorem weights_store (i : ℕ) (hi : i < 4) (inbK inbW) (x0 : Vec Ideal S256x256 .f32) (x1 : Vec Ideal S4x1024x256 .f32)
    (x3 x4 : Vec Ideal S256x64 .f32) (x : S1x256x1024.Idx) :
    shapeCast S1x256x1024 (weightV (Gen.k0_pay4 (View.ld x4 Gen.r0_0)) (Gen.k0_pay6 (View.ld x3 Gen.r0_0) (View.ld x0 Gen.r0_1))
        (View.ld x1 (Rect.unit (s := S4x1024x256) ![i, 0, 0] S1x1024x256.size inbK))) Facts₀.shapeCasts_S256x1024_S1x256x1024 x
      = wBlock x0 x1 x3 x4 ((Rect.unit (s := S4x256x1024) ![i, 0, 0] S1x256x1024.size inbW).emb x) := by
  rw [weights_unit, emb_w i hi, wk_loaded, qp_loaded, slice_ld x1 i hi]
  rfl

/-- The store of slice `i` into the contexts block holds the block's function at the store's place. -/
theorem contexts_store (i : ℕ) (hi : i < 4) (inbK inbC) (x0 : Vec Ideal S256x256 .f32) (x1 x2 : Vec Ideal S4x1024x256 .f32)
    (x3 x4 x5 : Vec Ideal S256x64 .f32) (x : S1x256x64.Idx) :
    shapeCast S1x256x64 (contextV (Gen.k0_pay4 (View.ld x4 Gen.r0_0)) (Gen.k0_pay5 (View.ld x5 Gen.r0_0))
        (Gen.k0_pay6 (View.ld x3 Gen.r0_0) (View.ld x0 Gen.r0_1))
        (View.ld x1 (Rect.unit (s := S4x1024x256) ![i, 0, 0] S1x1024x256.size inbK))
        (View.ld x2 (Rect.unit (s := S4x1024x256) ![i, 0, 0] S1x1024x256.size inbK))) Facts₀.shapeCasts_S256x64_S1x256x64 x
      = cBlock x0 x1 x2 x3 x4 x5 ((Rect.unit (s := S4x256x64) ![i, 0, 0] S1x256x64.size inbC).emb x) := by
  rw [contexts_unit, emb_c i hi, wk_loaded, wv_loaded, qp_loaded, slice_ld x1 i hi, slice_ld x2 i hi]
  rfl

/-- What the body leaves in the weights block. -/
theorem out6_eq (x0 : Vec Ideal S256x256 .f32) (x1 x2 : Vec Ideal S4x1024x256 .f32) (x3 x4 x5 : Vec Ideal S256x64 .f32) :
    Gen.out0_6 x0 x1 x2 x3 x4 x5 = wBlock x0 x1 x3 x4 := by
  funext y
  unfold Gen.out0_6
  refine View.canon_apply_of_pieces (wBlock x0 x1 x3 x4) _ ?_ y (Gen.cover0_6 _ _ _ _ y)
  intro p hp x
  simp only [List.mem_cons, List.mem_nil_iff, or_false] at hp
  rcases hp with rfl | rfl | rfl | rfl
  · exact (congrFun (pay2_eq _ _ _) x).trans (weights_store 3 (by omega) Facts₀.inb_S4x1024x256_S1x1024x256_3_0_0 Facts₀.inb_S4x256x1024_S1x256x1024_3_0_0 x0 x1 x3 x4 x)
  · exact (congrFun (pay16_eq _ _ _) x).trans (weights_store 2 (by omega) Facts₀.inb_S4x1024x256_S1x1024x256_2_0_0 Facts₀.inb_S4x256x1024_S1x256x1024_2_0_0 x0 x1 x3 x4 x)
  · exact (congrFun (pay13_eq _ _ _) x).trans (weights_store 1 (by omega) Facts₀.inb_S4x1024x256_S1x1024x256_1_0_0 Facts₀.inb_S4x256x1024_S1x256x1024_1_0_0 x0 x1 x3 x4 x)
  · exact (congrFun (pay9_7_eq _ _ _ _) x).trans (weights_store 0 (by omega) Facts₀.inb_S4x1024x256_S1x1024x256_0_0_0 Facts₀.inb_S4x256x1024_S1x256x1024_0_0_0 x0 x1 x3 x4 x)

/-- What the body leaves in the contexts block. -/
theorem out7_eq (x0 : Vec Ideal S256x256 .f32) (x1 x2 : Vec Ideal S4x1024x256 .f32) (x3 x4 x5 : Vec Ideal S256x64 .f32) :
    Gen.out0_7 x0 x1 x2 x3 x4 x5 = cBlock x0 x1 x2 x3 x4 x5 := by
  funext y
  unfold Gen.out0_7
  refine View.canon_apply_of_pieces (cBlock x0 x1 x2 x3 x4 x5) _ ?_ y (Gen.cover0_7 _ _ _ _ y)
  intro p hp x
  simp only [List.mem_cons, List.mem_nil_iff, or_false] at hp
  rcases hp with rfl | rfl | rfl | rfl
  · exact (congrFun (pay3_eq _ _ _ _ _) x).trans (contexts_store 3 (by omega) Facts₀.inb_S4x1024x256_S1x1024x256_3_0_0 Facts₀.inb_S4x256x64_S1x256x64_3_0_0 x0 x1 x2 x3 x4 x5 x)
  · exact (congrFun (pay17_eq _ _ _ _ _) x).trans (contexts_store 2 (by omega) Facts₀.inb_S4x1024x256_S1x1024x256_2_0_0 Facts₀.inb_S4x256x64_S1x256x64_2_0_0 x0 x1 x2 x3 x4 x5 x)
  · exact (congrFun (pay14_12_eq _ _ _ _ _) x).trans (contexts_store 1 (by omega) Facts₀.inb_S4x1024x256_S1x1024x256_1_0_0 Facts₀.inb_S4x256x64_S1x256x64_1_0_0 x0 x1 x2 x3 x4 x5 x)
  · exact (congrFun (pay10_8_eq _ _ _ _ _ _) x).trans (contexts_store 0 (by omega) Facts₀.inb_S4x1024x256_S1x1024x256_0_0_0 Facts₀.inb_S4x256x64_S1x256x64_0_0_0 x0 x1 x2 x3 x4 x5 x)

end Cert.KernelIdeal.Blocks

end
-- ==== Proof.Final.lean ====
/-
  The two arrays the kernel's region leaves, as whole-array functions of the arguments.

  Grid step `t` of 64 stages slices `4t … 4t+3` of the keys and of the values and the whole of the queries and of the
  three weight matrices, and writes back blocks `t` of the weights `[256, 256, 1024]` and of the contexts
  `[256, 256, 64]`: entry `(i, b, ·)` of a step's block is entry `(4t + i, b, ·)` of the array.  Every slice `n` lies in
  the block of step `n / 4`, so the blocks fill both arrays.
-/
import proofs.«131296_j89060441850566_2_alg».proof.Proof.Blocks

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.Attention Cert.KernelIdeal.Blocks
open Idealize.ShloMosaic.Pipeline (Dat)

variable (m : (ℓ : Loc nD τ sig) → Buf (Elt Ideal) ℓ)

/-- The printed index maps over the grid: the queries and the weight matrices are staged whole at every step, and the
    keys, the values and both outputs move one block of four slices per step. -/
theorem idx_facts : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

theorem point_lt (t : Fin cfg0.N) : t.val < 64 := lt_of_lt_of_eq t.isLt N_0

/-- Equal inputs give equal weights. -/
theorem weight_congr (x0 q : Vec Ideal S256x256 .f32) (x3 wq x4 wk : Vec Ideal S256x64 .f32) (k1 k2 : Mat 1024 256)
    (b : Fin 256) (l : Fin 1024) (h0 : x0 = q) (h3 : x3 = wq) (h4 : x4 = wk) (hk : k1 = k2) :
    weight (mm (r := 256) (d := 256) (j := 64) x0 x3) (mm k1 x4) b l
      = weight (mm (r := 256) (d := 256) (j := 64) q wq) (mm k2 wk) b l := by
  subst h0 h3 h4 hk; rfl

/-- Equal inputs give equal contexts. -/
theorem context_congr (x0 q : Vec Ideal S256x256 .f32) (x3 wq x4 wk x5 wv : Vec Ideal S256x64 .f32) (k1 k2 v1 v2 : Mat 1024 256)
    (b : Fin 256) (o : Fin 64) (h0 : x0 = q) (h3 : x3 = wq) (h4 : x4 = wk) (h5 : x5 = wv) (hk : k1 = k2) (hv : v1 = v2) :
    context (mm (r := 256) (d := 256) (j := 64) x0 x3) (mm k1 x4) (mm v1 x5) b o
      = context (mm (r := 256) (d := 256) (j := 64) q wq) (mm k2 wk) (mm v2 wv) b o := by
  subst h0 h3 h4 h5 hk hv; rfl

/-! ## The staged blocks -/

theorem blk0 (c : Dev nD) (t : Fin cfg0.N) : (iblk m c 0 t : Vec Ideal S256x256 .f32) = V m c main_arg0 := by
  obtain ⟨⟨e0, e1⟩, -⟩ := idx_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 256 + 1 * (y 0).val = (y 0).val; omega
  | ⟨1, _⟩ => show win0_0.index t (1 : Fin 2) * 256 + 1 * (y 1).val = (y 1).val; omega

theorem blk3 (c : Dev nD) (t : Fin cfg0.N) : (iblk m c 3 t : Vec Ideal S256x64 .f32) = V m c main_arg3 := by
  obtain ⟨-, -, -, ⟨e0, e1⟩, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 64 + 1 * (y 1).val = (y 1).val; omega

theorem blk4 (c : Dev nD) (t : Fin cfg0.N) : (iblk m c 4 t : Vec Ideal S256x64 .f32) = V m c main_arg4 := by
  obtain ⟨-, -, -, -, ⟨e0, e1⟩, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 256 + 1 * (y 0).val = (y 0).val; omega
  | ⟨1, _⟩ => show win0_4.index t (1 : Fin 2) * 64 + 1 * (y 1).val = (y 1).val; omega

theorem blk5 (c : Dev nD) (t : Fin cfg0.N) : (iblk m c 5 t : Vec Ideal S256x64 .f32) = V m c main_arg5 := by
  obtain ⟨-, -, -, -, -, ⟨e0, e1⟩, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

/-- Slice `i` of the keys block of step `t` is slice `4t + i` of the keys. -/
theorem blk1 (c : Dev nD) (t : Fin cfg0.N) (i : Fin 4) (hn : 4 * t.val + i.val < 256) :
    slice (N := 4) (a := 1024) (b := 256) (iblk m c 1 t : Vec Ideal S4x1024x256 .f32) i
      = slice (N := 256) (a := 1024) (b := 256) (V m c main_arg1) ⟨4 * t.val + i.val, hn⟩ := by
  obtain ⟨-, ⟨e0, e1, e2⟩, -⟩ := idx_facts t
  funext y
  show V m c main_arg1 (((cfg0.win 1).blk t).view.emb (ix3 i (y 0) (y 1))) = V m c main_arg1 (ix3 ⟨4 * t.val + i.val, hn⟩ (y 0) (y 1))
  refine congrArg (V m c main_arg1) (funext fun a => Fin.ext ?_)
  match a with
  | ⟨0, _⟩ => show win0_1.index t (0 : Fin 3) * 4 + 1 * i.val = 4 * t.val + i.val; omega
  | ⟨1, _⟩ => show win0_1.index t (1 : Fin 3) * 1024 + 1 * (y 0).val = (y 0).val; omega
  | ⟨2, _⟩ => show win0_1.index t (2 : Fin 3) * 256 + 1 * (y 1).val = (y 1).val; omega

/-- Slice `i` of the values block of step `t` is slice `4t + i` of the values. -/
theorem blk2 (c : Dev nD) (t : Fin cfg0.N) (i : Fin 4) (hn : 4 * t.val + i.val < 256) :
    slice (N := 4) (a := 1024) (b := 256) (iblk m c 2 t : Vec Ideal S4x1024x256 .f32) i
      = slice (N := 256) (a := 1024) (b := 256) (V m c main_arg2) ⟨4 * t.val + i.val, hn⟩ := by
  obtain ⟨-, -, ⟨e0, e1, e2⟩, -⟩ := idx_facts t
  funext y
  show V m c main_arg2 (((cfg0.win 2).blk t).view.emb (ix3 i (y 0) (y 1))) = V m c main_arg2 (ix3 ⟨4 * t.val + i.val, hn⟩ (y 0) (y 1))
  refine congrArg (V m c main_arg2) (funext fun a => Fin.ext ?_)
  match a with
  | ⟨0, _⟩ => show win0_2.index t (0 : Fin 3) * 4 + 1 * i.val = 4 * t.val + i.val; omega
  | ⟨1, _⟩ => show win0_2.index t (1 : Fin 3) * 1024 + 1 * (y 0).val = (y 0).val; omega
  | ⟨2, _⟩ => show win0_2.index t (2 : Fin 3) * 256 + 1 * (y 1).val = (y 1).val; omega

/-! ## The weights -/

/-- What step `t` writes back to the weights is block `t` of the weights of the arguments. -/
theorem flushed6_eq (c : Dev nD) (t : Fin cfg0.N) :
    (dats m 0 c).flushed 6 t = ((cfg0.win 6).blk t).view.read (Elt Ideal)
      (weights (V m c main_arg0) (V m c main_arg1) (V m c main_arg3) (V m c main_arg4)) := by
  show (cfg0.win 6).cut (grid0.coords t) ((dats m 0 c).after 6 t) = _
  rw [after0_6, out6_eq]
  have ht := point_lt t
  obtain ⟨-, -, -, -, -, -, ⟨e0, e1, e2⟩, -⟩ := idx_facts t
  funext j
  obtain ⟨i, b, l, rfl⟩ : ∃ (i : Fin 4) (b : Fin 256) (l : Fin 1024), j = ix3 i b l := ⟨j 0, j 1, j 2, eq_ix3 j⟩
  have hn : 4 * t.val + i.val < 256 := by have := i.isLt; omega
  have hE : ((cfg0.win 6).blk t).view.emb (ix3 i b l) = ix3 (⟨4 * t.val + i.val, hn⟩ : Fin 256) b l := by
    refine funext fun a => Fin.ext ?_
    match a with
    | ⟨0, _⟩ => show win0_6.index t (0 : Fin 3) * 4 + 1 * i.val = 4 * t.val + i.val; omega
    | ⟨1, _⟩ => show win0_6.index t (1 : Fin 3) * 256 + 1 * b.val = b.val; omega
    | ⟨2, _⟩ => show win0_6.index t (2 : Fin 3) * 1024 + 1 * l.val = l.val; omega
  show wBlock (iblk m c 0 t) (iblk m c 1 t) (iblk m c 3 t) (iblk m c 4 t) (ix3 i b l)
    = weights (V m c main_arg0) (V m c main_arg1) (V m c main_arg3) (V m c main_arg4) (((cfg0.win 6).blk t).view.emb (ix3 i b l))
  rw [hE]
  exact weight_congr (iblk m c 0 t) (V m c main_arg0) (iblk m c 3 t) (V m c main_arg3) (iblk m c 4 t) (V m c main_arg4)
    (slice (N := 4) (a := 1024) (b := 256) (iblk m c 1 t : Vec Ideal S4x1024x256 .f32) i)
    (slice (N := 256) (a := 1024) (b := 256) (V m c main_arg1) ⟨4 * t.val + i.val, hn⟩) b l
    (blk0 m c t) (blk3 m c t) (blk4 m c t) (blk1 m c t i hn)

/-- An index of the weights is in step `t`'s block iff each coordinate is in the block's range on its axis. -/
theorem mem_blk6 (t : Fin cfg0.N) (i : S256x256x1024.Idx) :
    i ∈ ((cfg0.win 6).blk t).view.set ↔ ∀ a : Fin 3, win0_6.index t a * S4x256x1024.size a ≤ (i a).val
      ∧ (i a).val < win0_6.index t a * S4x256x1024.size a + S4x256x1024.size a := by
  show i ∈ ((View.whole main_v0_0).slice (win0_6.rect t)).set ↔ _
  rw [View.set_slice_whole, Rect.mem_set_unit]
  exact Iff.rfl

/-- Every index of the weights is in some step's block: slice `n` in step `n / 4`. -/
theorem cover6 (i : S256x256x1024.Idx) :
    ∃ t : Fin cfg0.N, (cfg0.win 6).flush t = true ∧ i ∈ ((cfg0.win 6).blk t).view.set := by
  have h0 : (i 0).val < 256 := (i 0).isLt
  have h1 : (i 1).val < 256 := (i 1).isLt
  have h2 : (i 2).val < 1024 := (i 2).isLt
  have hq : (i 0).val / 4 < cfg0.N := lt_of_lt_of_eq (by omega : (i 0).val / 4 < 64) N_0.symm
  refine ⟨⟨(i 0).val / 4, hq⟩, flush0_6 _, ?_⟩
  obtain ⟨-, -, -, -, -, -, ⟨e0, e1, e2⟩, -⟩ := idx_facts ⟨(i 0).val / 4, hq⟩
  rw [mem_blk6]
  intro a
  match a with
  | ⟨0, _⟩ =>
    show win0_6.index ⟨(i 0).val / 4, hq⟩ (0 : Fin 3) * 4 ≤ (i 0).val ∧ (i 0).val < win0_6.index ⟨(i 0).val / 4, hq⟩ (0 : Fin 3) * 4 + 4
    rw [e0]; show (i 0).val / 4 * 4 ≤ (i 0).val ∧ (i 0).val < (i 0).val / 4 * 4 + 4; omega
  | ⟨1, _⟩ =>
    show win0_6.index ⟨(i 0).val / 4, hq⟩ (1 : Fin 3) * 256 ≤ (i 1).val ∧ (i 1).val < win0_6.index ⟨(i 0).val / 4, hq⟩ (1 : Fin 3) * 256 + 256
    omega
  | ⟨2, _⟩ =>
    show win0_6.index ⟨(i 0).val / 4, hq⟩ (2 : Fin 3) * 1024 ≤ (i 2).val ∧ (i 2).val < win0_6.index ⟨(i 0).val / 4, hq⟩ (2 : Fin 3) * 1024 + 1024
    omega

/-- The weights array after the region. -/
theorem final6 (c : Dev nD) : (dats m 0 c).arrAt 6 cfg0.N
    = weights (m ((c : Thread nD τ).loc main_arg0)) (m ((c : Thread nD τ).loc main_arg1))
        (m ((c : Thread nD τ).loc main_arg3)) (m ((c : Thread nD τ).loc main_arg4)) :=
  (dats m 0 c).arrAt_eq_of_cover 6 _ (fun t _ => flushed6_eq m c t) cover6

/-! ## The contexts -/

/-- What step `t` writes back to the contexts is block `t` of the contexts, slice by slice, of the arguments. -/
theorem flushed7_eq (c : Dev nD) (t : Fin cfg0.N) :
    (dats m 0 c).flushed 7 t = ((cfg0.win 7).blk t).view.read (Elt Ideal)
      (contextsBySlice (V m c main_arg0) (V m c main_arg1) (V m c main_arg2) (V m c main_arg3) (V m c main_arg4) (V m c main_arg5)) := by
  show (cfg0.win 7).cut (grid0.coords t) ((dats m 0 c).after 7 t) = _
  rw [after0_7, out7_eq]
  have ht := point_lt t
  obtain ⟨-, -, -, -, -, -, -, ⟨e0, e1, e2⟩⟩ := idx_facts t
  funext j
  obtain ⟨i, b, o, rfl⟩ : ∃ (i : Fin 4) (b : Fin 256) (o : Fin 64), j = ix3 i b o := ⟨j 0, j 1, j 2, eq_ix3 j⟩
  have hn : 4 * t.val + i.val < 256 := by have := i.isLt; omega
  have hE : ((cfg0.win 7).blk t).view.emb (ix3 i b o) = ix3 (⟨4 * t.val + i.val, hn⟩ : Fin 256) b o := by
    refine funext fun a => Fin.ext ?_
    match a with
    | ⟨0, _⟩ => show win0_7.index t (0 : Fin 3) * 4 + 1 * i.val = 4 * t.val + i.val; omega
    | ⟨1, _⟩ => show win0_7.index t (1 : Fin 3) * 256 + 1 * b.val = b.val; omega
    | ⟨2, _⟩ => show win0_7.index t (2 : Fin 3) * 64 + 1 * o.val = o.val; omega
  show cBlock (iblk m c 0 t) (iblk m c 1 t) (iblk m c 2 t) (iblk m c 3 t) (iblk m c 4 t) (iblk m c 5 t) (ix3 i b o)
    = contextsBySlice (V m c main_arg0) (V m c main_arg1) (V m c main_arg2) (V m c main_arg3) (V m c main_arg4) (V m c main_arg5)
        (((cfg0.win 7).blk t).view.emb (ix3 i b o))
  rw [hE]
  exact context_congr (iblk m c 0 t) (V m c main_arg0) (iblk m c 3 t) (V m c main_arg3) (iblk m c 4 t) (V m c main_arg4)
    (iblk m c 5 t) (V m c main_arg5)
    (slice (N := 4) (a := 1024) (b := 256) (iblk m c 1 t : Vec Ideal S4x1024x256 .f32) i)
    (slice (N := 256) (a := 1024) (b := 256) (V m c main_arg1) ⟨4 * t.val + i.val, hn⟩)
    (slice (N := 4) (a := 1024) (b := 256) (iblk m c 2 t : Vec Ideal S4x1024x256 .f32) i)
    (slice (N := 256) (a := 1024) (b := 256) (V m c main_arg2) ⟨4 * t.val + i.val, hn⟩) b o
    (blk0 m c t) (blk3 m c t) (blk4 m c t) (blk5 m c t) (blk1 m c t i hn) (blk2 m c t i hn)

/-- An index of the contexts is in step `t`'s block iff each coordinate is in the block's range on its axis. -/
theorem mem_blk7 (t : Fin cfg0.N) (i : S256x256x64.Idx) :
    i ∈ ((cfg0.win 7).blk t).view.set ↔ ∀ a : Fin 3, win0_7.index t a * S4x256x64.size a ≤ (i a).val
      ∧ (i a).val < win0_7.index t a * S4x256x64.size a + S4x256x64.size a := by
  show i ∈ ((View.whole main_v0_1).slice (win0_7.rect t)).set ↔ _
  rw [View.set_slice_whole, Rect.mem_set_unit]
  exact Iff.rfl

/-- Every index of the contexts is in some step's block. -/
theorem cover7 (i : S256x256x64.Idx) :
    ∃ t : Fin cfg0.N, (cfg0.win 7).flush t = true ∧ i ∈ ((cfg0.win 7).blk t).view.set := by
  have h0 : (i 0).val < 256 := (i 0).isLt
  have h1 : (i 1).val < 256 := (i 1).isLt
  have h2 : (i 2).val < 64 := (i 2).isLt
  have hq : (i 0).val / 4 < cfg0.N := lt_of_lt_of_eq (by omega : (i 0).val / 4 < 64) N_0.symm
  refine ⟨⟨(i 0).val / 4, hq⟩, flush0_7 _, ?_⟩
  obtain ⟨-, -, -, -, -, -, -, ⟨e0, e1, e2⟩⟩ := idx_facts ⟨(i 0).val / 4, hq⟩
  rw [mem_blk7]
  intro a
  match a with
  | ⟨0, _⟩ =>
    show win0_7.index ⟨(i 0).val / 4, hq⟩ (0 : Fin 3) * 4 ≤ (i 0).val ∧ (i 0).val < win0_7.index ⟨(i 0).val / 4, hq⟩ (0 : Fin 3) * 4 + 4
    rw [e0]; show (i 0).val / 4 * 4 ≤ (i 0).val ∧ (i 0).val < (i 0).val / 4 * 4 + 4; omega
  | ⟨1, _⟩ =>
    show win0_7.index ⟨(i 0).val / 4, hq⟩ (1 : Fin 3) * 256 ≤ (i 1).val ∧ (i 1).val < win0_7.index ⟨(i 0).val / 4, hq⟩ (1 : Fin 3) * 256 + 256
    omega
  | ⟨2, _⟩ =>
    show win0_7.index ⟨(i 0).val / 4, hq⟩ (2 : Fin 3) * 64 ≤ (i 2).val ∧ (i 2).val < win0_7.index ⟨(i 0).val / 4, hq⟩ (2 : Fin 3) * 64 + 64
    omega

/-- The slice-by-slice contexts array after the region. -/
theorem final7 (c : Dev nD) : (dats m 0 c).arrAt 7 cfg0.N
    = contextsBySlice (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  (dats m 0 c).arrAt_eq_of_cover 7 _ (fun t _ => flushed7_eq m c t) cover7

end Cert.KernelIdeal.Final

end
-- ==== Proof.KernelRun.lean ====
/-
  The idealized kernel's run, with both results as functions of the arguments.

  After the region the program transposes the slice-by-slice contexts `[n, b, o]` to `[b, n, o]`; the weights are the
  region's own first output.  So the program ends with the contexts and the weights of the specification, and with its
  arguments as it found them.
-/
import proofs.«131296_j89060441850566_2_alg».proof.Proof.Final
import Idealize.ShloMosaic.Lib.StableHlo.Run

set_option maxRecDepth 16384

noncomputable section

namespace Cert.KernelIdeal.KernelRun

open Idealize.ShloMosaic Idealize.ShloMosaic.TcCoe Idealize.ShloMosaic.ValueIdx Idealize.SL.Sem Idealize.ShloMosaic.StableHlo
open Cert.KernelIdeal Cert.KernelIdeal.Gen Cert.Attention Cert.KernelIdeal.Final

variable (m : (ℓ : Loc nD τ sig) → Buf (Elt Ideal) ℓ) (ρ : Dev nD → PrngReg)

/-- Swapping the first two axes of the slice-by-slice contexts gives the contexts laid out `[b, n, o]`. -/
theorem contexts_of_slices (q : Mat 256 256) (K V : Ten 256 1024 256) (wq wk wv : Mat 256 64)
    (h : S256x256x64.Transposes [1, 0, 2] S256x256x64) :
    transpose S256x256x64 [1, 0, 2] (contextsBySlice q K V wq wk wv) h = contexts q K V wq wk wv := by
  funext i
  obtain ⟨b, n, o, rfl⟩ : ∃ (b n : Fin 256) (o : Fin 64), i = ix3 b n o := ⟨i 0, i 1, i 2, eq_ix3 i⟩
  refine (transpose_apply [1, 0, 2] (contextsBySlice q K V wq wk wv) h (ix3 b n o) (ix3 n b o) (fun a => match a with
    | ⟨0, _⟩ => rfl
    | ⟨1, _⟩ => rfl
    | ⟨2, _⟩ => rfl)).trans ?_
  rfl

/-- The transposed result is no array of the region. -/
theorem v1_rest : main_v1 ∈ Pipeline.restRefs sig (cfgs 0).spec :=
  Pipeline.mem_restRefs_of main_v1 rfl (by decide)

/-- What the line after the region leaves in its result: the transpose of the region's second output. -/
theorem tail_eq (c : Dev nD) :
    Pipeline.afterTail₀ cfgs (dats m) 0 (V0 m) [hostOps1] c main_v1
      = transpose S256x256x64 [1, 0, 2] ((dats m 0 c).arrAt 7 cfg0.N) Facts₀.transposes_S256x256x64_S256x256x64_1_0_2 := by
  unfold Pipeline.afterTail₀
  show StableHlo.after hostOps1 _ (Proc.devRef .tc main_v1) = _
  after_results
  exact congrArg (fun x => transpose S256x256x64 [1, 0, 2] x Facts₀.transposes_S256x256x64_S256x256x64_1_0_2)
    (Pipeline.withArrays_arr spec0 launch0.win.arr_inj c _ _ 7)

/-- The run: the contexts, the weights, and the arguments unchanged. -/
theorem run : θ_run defs (onTc (τ := τ) (main (F := Ideal))) ⟨m, fun _ => 0, ρ⟩ fun r => ∀ c : Dev nD,
      r.2.mem ((c.tc : Thread nD τ).loc main_v1)
        = contexts (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v0_0)
        = weights (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v1 v1_rest).trans ((tail_eq m c).trans (by rw [final7]; exact contexts_of_slices _ _ _ _ _ _ _)),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KernelRun

end
-- ==== Proof.Reference.lean ====
/-
  The reference program computes the specification.

  Stage by stage, at an index over the extended reals: the three projections are matrix products; the scores are the
  inner products of projected key rows with projected query rows (the factors the other way round from the
  specification), transposed and scaled; the row maximum is folded from `-∞` and then joined with `-∞` once more, which
  changes nothing; the exponentials, their row sums (from zero) and the quotient follow; the contexts are the sums of
  projected values times weights (again the factors the other way round), transposed to `[b, n, o]`.
-/
import proofs.«131296_j89060441850566_2_alg».proof.Proof.Gen.ReferenceIdeal.Read
import proofs.«131296_j89060441850566_2_alg».proof.Proof.Spec
import Idealize.ShloMosaic.PureOps.Ideal.Laws

noncomputable section

namespace Cert.ReferenceIdeal.RefValue

open Idealize.ShloMosaic Idealize.ShloMosaic.ValueIdx Cert.ReferenceIdeal Cert.ReferenceIdeal.Read Cert.Attention

local macro "coords2" : term => `(funext fun a => Fin.ext (by match a with | ⟨0, _⟩ => rfl | ⟨1, _⟩ => rfl))
local macro "coords3" : term => `(funext fun a => Fin.ext (by match a with | ⟨0, _⟩ => rfl | ⟨1, _⟩ => rfl | ⟨2, _⟩ => rfl))

variable (x0 : (⟨S256x256, .f32⟩ : BufTy).Contents (Elt Ideal)) (x1 x2 : (⟨S256x1024x256, .f32⟩ : BufTy).Contents (Elt Ideal))
  (x3 x4 x5 : (⟨S256x64, .f32⟩ : BufTy).Contents (Elt Ideal))

/-- The query projection. -/
theorem v0_eq : val_main_v0 (F := Ideal) x0 x3 = mm (r := 256) (d := 256) (j := 64) x0 x3 := by
  funext i
  obtain ⟨b, c, rfl⟩ : ∃ (b : Fin 256) (c : Fin 64), i = ix2 b c := ⟨i 0, i 1, eq_ix2 i⟩
  rw [val_main_v0_apply, mm_apply]
  refine Finset.sum_congr rfl fun k _ => ?_
  rw [show lidx_main_v0 (ix2 b c) k = ix2 b k from coords2, show ridx_main_v0 (ix2 b c) k = ix2 k c from coords2]

/-- The key projection of slice `n`. -/
theorem v1_at (n : Fin 256) (l : Fin 1024) (c : Fin 64) :
    val_main_v1 (F := Ideal) x1 x4 (ix3 n l c) = mm (slice (N := 256) (a := 1024) (b := 256) x1 n) x4 (ix2 l c) := by
  rw [val_main_v1_apply, mm_apply]
  refine Finset.sum_congr rfl fun k _ => ?_
  rw [show lidx_main_v1 (ix3 n l c) k = ix3 n l k from coords3, show ridx_main_v1 (ix3 n l c) k = ix2 k c from coords2]
  rfl

/-- The value projection of slice `n`. -/
theorem v2_at (n : Fin 256) (l : Fin 1024) (c : Fin 64) :
    val_main_v2 (F := Ideal) x2 x5 (ix3 n l c) = mm (slice (N := 256) (a := 1024) (b := 256) x2 n) x5 (ix2 l c) := by
  rw [val_main_v2_apply, mm_apply]
  refine Finset.sum_congr rfl fun k _ => ?_
  rw [show lidx_main_v2 (ix3 n l c) k = ix3 n l k from coords3, show ridx_main_v2 (ix3 n l c) k = ix2 k c from coords2]
  rfl

/-- The scaled scores. -/
theorem v6_at (n b : Fin 256) (l : Fin 1024) :
    val_main_v6 (F := Ideal) x0 x1 x3 x4 (ix3 n b l)
      = score (mm (r := 256) (d := 256) (j := 64) x0 x3) (mm (slice (N := 256) (a := 1024) (b := 256) x1 n) x4) b l := by
  rw [val_main_v6_apply, val_main_v4_apply, val_main_v5_apply, val_main_cst_apply,
    show idx_main_v4 (ix3 n b l) = ix3 n l b from coords3, val_main_v3_apply]
  unfold score
  refine congrArg (· * eighth) ?_
  refine Finset.sum_congr rfl fun k _ => ?_
  rw [show lidx_main_v3 (ix3 n l b) k = ix3 n l k from coords3, show ridx_main_v3 (ix3 n l b) k = ix2 b k from coords2,
    v1_at, v0_eq]
  exact mul_comm _ _

/-- Putting coordinate `k` back on the last axis of `(n, b)`. -/
theorem lift_last (h : S256x256x1024.Reduces [2] S256x256) (n b : Fin 256) (k : Fin 1024) :
    h.lift (ix2 n b) k = ix3 n b k := coords3

/-- The row maximum: folding from `-∞` and joining with `-∞` again is the fold. -/
theorem v9_at (n b : Fin 256) :
    val_main_v9 (F := Ideal) x0 x1 x3 x4 (ix2 n b)
      = rowMax (mm (r := 256) (d := 256) (j := 64) x0 x3) (mm (slice (N := 256) (a := 1024) (b := 256) x1 n) x4) b := by
  have h : S256x256x1024.Reduces [2] S256x256 := by decide
  rw [val_main_v9_apply, val_main_v8_apply, val_main_cst_1_apply]
  unfold val_main_v7
  rw [Host.reduce_eq_fold_single FloatOps.maximumf _ _ Facts₀.reducesTo_S256x256x1024_S256x256_d2 h Facts₀.h_S_]
  unfold rowMax
  have e : (val_main_v6 (F := Ideal) x0 x1 x3 x4 ∘ h.lift (ix2 n b))
      = fun l => score (mm (r := 256) (d := 256) (j := 64) x0 x3) (mm (slice (N := 256) (a := 1024) (b := 256) x1 n) x4) b l :=
    funext fun k => by rw [Function.comp_apply, lift_last h n b k]; exact v6_at x0 x1 x3 x4 n b k
  rw [e]
  show max floorVal ((Finset.univ : Finset (Fin 1024)).fold max floorVal _) = _
  exact max_eq_right ((Finset.le_fold_max floorVal).mpr (Or.inl le_rfl))

/-- The exponentials. -/
theorem v13_at (n b : Fin 256) (l : Fin 1024) :
    val_main_v13 (F := Ideal) x0 x1 x3 x4 (ix3 n b l)
      = expo (mm (r := 256) (d := 256) (j := 64) x0 x3) (mm (slice (N := 256) (a := 1024) (b := 256) x1 n) x4) b l := by
  rw [val_main_v13_apply, val_main_v12_apply, val_main_v11_apply, val_main_v10_apply, v6_at,
    show idx_main_v10 (idx_main_v11 (ix3 n b l)) = ix2 n b from coords2, v9_at]
  rfl

/-- The row sums of the exponentials, from zero. -/
theorem v14_at (n b : Fin 256) :
    val_main_v14 (F := Ideal) x0 x1 x3 x4 (ix2 n b)
      = denom (mm (r := 256) (d := 256) (j := 64) x0 x3) (mm (slice (N := 256) (a := 1024) (b := 256) x1 n) x4) b := by
  rw [val_main_v14_apply, val_main_cst_2_apply]
  unfold denom
  show Ideal.ofBits .f32 0x00000000#32 + _ = _
  rw [Ideal.ofBits_zero_f32, zero_add]
  refine Finset.sum_congr rfl fun k _ => ?_
  rw [show idx_main_v14 (ix2 n b) k = ix3 n b k from coords3, v13_at]

/-- The weights. -/
theorem v17_at (n b : Fin 256) (l : Fin 1024) :
    val_main_v17 (F := Ideal) x0 x1 x3 x4 (ix3 n b l)
      = weight (mm (r := 256) (d := 256) (j := 64) x0 x3) (mm (slice (N := 256) (a := 1024) (b := 256) x1 n) x4) b l := by
  rw [val_main_v17_apply, val_main_v16_apply, val_main_v15_apply, v13_at,
    show idx_main_v15 (idx_main_v16 (ix3 n b l)) = ix2 n b from coords2, v14_at]
  rfl

/-- The reference's second result is the weights of every slice. -/
theorem weights_eq : val_main_v17 (F := Ideal) x0 x1 x3 x4 = weights x0 x1 x3 x4 := by
  funext i
  obtain ⟨n, b, l, rfl⟩ : ∃ (n b : Fin 256) (l : Fin 1024), i = ix3 n b l := ⟨i 0, i 1, i 2, eq_ix3 i⟩
  rw [v17_at]
  rfl

/-- The reference's first result is the contexts laid out `[b, n, o]`. -/
theorem contexts_eq : val_main_v19 (F := Ideal) x0 x1 x2 x3 x4 x5 = contexts x0 x1 x2 x3 x4 x5 := by
  funext i
  obtain ⟨b, n, o, rfl⟩ : ∃ (b n : Fin 256) (o : Fin 64), i = ix3 b n o := ⟨i 0, i 1, i 2, eq_ix3 i⟩
  rw [val_main_v19_apply, show idx_main_v19 (ix3 b n o) = ix3 n o b from coords3, val_main_v18_apply]
  show _ = context _ _ _ b o
  unfold context
  refine Finset.sum_congr rfl fun k _ => ?_
  rw [show lidx_main_v18 (ix3 n o b) k = ix3 n k o from coords3, show ridx_main_v18 (ix3 n o b) k = ix3 n b k from coords3,
    v2_at, v17_at]
  exact mul_comm _ _

end Cert.ReferenceIdeal.RefValue

end
-- ==== Proof.lean ====
/-
  The certificate: a Pallas attention kernel against its jnp reference, over the extended reals.

  Both programs project the queries once and, slice by slice, the keys and the values; score every query row against
  every key row of the slice, scaled by `1/8`; turn each row of scores into weights by the softmax (subtract the row's
  maximum, exponentiate, divide by the row's sum); and multiply the weights into the projected values.  The kernel does
  this four slices per grid step with matrix units fed in a narrower float format, which over the extended reals is no
  change at all, and transposes its slice-by-slice contexts at the end; the reference writes the same sums with the
  factors of two products the other way round and joins the row maximum with `-∞` once more.  Nothing but the
  commutativity of the product and the freedom to order a finite sum is used, so no entry needs to be finite.

  The three frames are the generated ones (the reference's is its run with the results dropped); the idealization
  rewrote nothing, so the kernel's idealization is the kernel's own text; and the two idealized programs end with the
  specification's contexts and weights (`Cert.Attention`), the kernel by the blocks its steps write back and the
  reference stage by stage.
-/
import proofs.«131296_j89060441850566_2_alg».proof.Defs
import proofs.«131296_j89060441850566_2_alg».proof.Proof.Gen.Kernel
import proofs.«131296_j89060441850566_2_alg».proof.Proof.Gen.Kernel.Skeleton
import proofs.«131296_j89060441850566_2_alg».proof.Proof.Gen.Kernel.Launch
import proofs.«131296_j89060441850566_2_alg».proof.Proof.Gen.Kernel.Points
import proofs.«131296_j89060441850566_2_alg».proof.Proof.Gen.Kernel.Frame
import proofs.«131296_j89060441850566_2_alg».proof.Proof.Gen.KernelIdeal
import proofs.«131296_j89060441850566_2_alg».proof.Proof.Gen.KernelIdeal.Skeleton
import proofs.«131296_j89060441850566_2_alg».proof.Proof.Gen.KernelIdeal.Launch
import proofs.«131296_j89060441850566_2_alg».proof.Proof.Gen.KernelIdeal.Points
import proofs.«131296_j89060441850566_2_alg».proof.Proof.Gen.KernelIdeal.Frame
import proofs.«131296_j89060441850566_2_alg».proof.Proof.Gen.ReferenceIdeal
import proofs.«131296_j89060441850566_2_alg».proof.Proof.Gen.Pre_finite_inputs
import proofs.«131296_j89060441850566_2_alg».proof.Proof.Gen.ReferenceIdeal.Run
import proofs.«131296_j89060441850566_2_alg».proof.Proof.Gen.ReferenceIdeal.Read
import proofs.«131296_j89060441850566_2_alg».proof.Proof.KernelRun
import proofs.«131296_j89060441850566_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the contexts `[b, n, o]` and the weights
    `[n, b, l]` of the specification. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.ReferenceIdeal.RefValue.contexts_eq,
      (hagree c).1, (hagree c).2.1, (hagree c).2.2.1, (hagree c).2.2.2.1, (hagree c).2.2.2.2.1, (hagree c).2.2.2.2.2]
  · rw [Cert.ReferenceIdeal.Read.val_main_v17_eq, Cert.ReferenceIdeal.RefValue.weights_eq,
      (hagree c).1, (hagree c).2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
